-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg6 : FVec F S800000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S800000 .f32 := Host.absf main_arg6
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  main_v23

def fn {F : FTy → Type} [FloatOps F] (main_arg0 : FVec F S2x50000x128 .f32) (main_arg1 : FVec F S128x64 .f32) (main_arg2 : FVec F S128x64 .f32) (main_arg3 : FVec F S64 .f32) (main_arg4 : IVec S800000 32) (main_arg5 : IVec S800000 32) (main_arg6 : FVec F S800000 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S2x50000x128 : Shape := ⟨3, ![2, 50000, 128]⟩
abbrev S128x64 : Shape := ⟨2, ![128, 64]⟩
abbrev S64 : Shape := ⟨1, ![64]⟩
abbrev S800000 : Shape := ⟨1, ![800000]⟩
abbrev S100000x128 : Shape := ⟨2, ![100000, 128]⟩
abbrev S128x128 : Shape := ⟨2, ![128, 128]⟩
abbrev S_ : Shape := ⟨0, ![]⟩
abbrev S128 : Shape := ⟨1, ![128]⟩
abbrev S1x128 : Shape := ⟨2, ![1, 128]⟩
abbrev S10000x128 : Shape := ⟨2, ![10000, 128]⟩
abbrev S100000x64 : Shape := ⟨2, ![100000, 64]⟩
abbrev S2x50000x64 : Shape := ⟨3, ![2, 50000, 64]⟩
abbrev S50000x2x64 : Shape := ⟨3, ![50000, 2, 64]⟩
abbrev S50000x128 : Shape := ⟨2, ![50000, 128]⟩
abbrev S800000x1 : Shape := ⟨2, ![800000, 1]⟩
abbrev S800000x128 : Shape := ⟨2, ![800000, 128]⟩
abbrev S10000x64 : Shape := ⟨2, ![10000, 64]⟩

abbrev nBuf : Space → Nat
  | .hbm => 42
  | .vmem => 12
  | .smem => 0
  | _ => 0

abbrev bufTy : (tb : Table) → Fin (tcTables nBuf tb) → BufTy
  | .hbm, ⟨0, _⟩ => ⟨S2x50000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S100000x128, .f32⟩
  | .hbm, ⟨8, _⟩ => ⟨S128x128, .f32⟩
  | .hbm, ⟨9, _⟩ => ⟨S_, .f32⟩
  | .hbm, ⟨10, _⟩ => ⟨S64, .f32⟩
  | .hbm, ⟨11, _⟩ => ⟨S128, .f32⟩
  | .hbm, ⟨12, _⟩ => ⟨S1x128, .f32⟩
  | .hbm, ⟨13, _⟩ => ⟨S100000x128, .f32⟩
  | .hbm, ⟨14, _⟩ => ⟨S100000x64, .f32⟩
  | .hbm, ⟨15, _⟩ => ⟨S2x50000x64, .f32⟩
  | .hbm, ⟨16, _⟩ => ⟨S100000x64, .f32⟩
  | .hbm, ⟨17, _⟩ => ⟨S2x50000x64, .f32⟩
  | .hbm, ⟨18, _⟩ => ⟨S50000x2x64, .f32⟩
  | .hbm, ⟨19, _⟩ => ⟨S50000x128, .f32⟩
  | .hbm, ⟨20, _⟩ => ⟨S800000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x2x64, .f32⟩
  | .hbm, ⟨37, _⟩ => ⟨S2x50000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S2x50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S2x50000x128_S100000x128 : S2x50000x128.ShapeCasts S100000x128
  concatenates_S128x64_S128x64_S128x128_d1 : Shape.Concatenates [S128x64, S128x64] S128x128 1
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S100000x128_S100000x64_0_0 : S100000x128.Slices ![0, 0] S100000x64
  shapeCasts_S100000x64_S2x50000x64 : S100000x64.ShapeCasts S2x50000x64
  slices_S100000x128_S100000x64_0_64 : S100000x128.Slices ![0, 64] S100000x64
  transposes_S2x50000x64_S50000x2x64_1_0_2 : S2x50000x64.Transposes [1, 0, 2] S50000x2x64
  shapeCasts_S50000x2x64_S50000x128 : S50000x2x64.ShapeCasts S50000x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000x128_S50000x2x64 : S50000x128.ShapeCasts S50000x2x64
  transposes_S50000x2x64_S2x50000x64_1_0_2 : S50000x2x64.Transposes [1, 0, 2] S2x50000x64
  shapeCasts_S2x50000x64_S100000x64 : S2x50000x64.ShapeCasts S100000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x50000x128 : Shape := ⟨3, ![2, 50000, 128]⟩
abbrev S128x64 : Shape := ⟨2, ![128, 64]⟩
abbrev S64 : Shape := ⟨1, ![64]⟩
abbrev S800000 : Shape := ⟨1, ![800000]⟩
abbrev S2x50000x64 : Shape := ⟨3, ![2, 50000, 64]⟩
abbrev S50000x2x64 : Shape := ⟨3, ![50000, 2, 64]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x1x64 : Shape := ⟨3, ![1, 1, 64]⟩

abbrev nBuf : Space → Nat
  | .hbm => 36
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S2x50000x64, .f32⟩
  | .hbm, ⟨8, _⟩ => ⟨S50000x2x64, .f32⟩
  | .hbm, ⟨9, _⟩ => ⟨S50000x128, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x2x64, .f32⟩
  | .hbm, ⟨27, _⟩ => ⟨S2x50000x64, .f32⟩
  | .hbm, ⟨28, _⟩ => ⟨S2x50000x64, .f32⟩
  | .hbm, ⟨29, _⟩ => ⟨S1x1x64, .f32⟩
  | .hbm, ⟨30, _⟩ => ⟨S2x50000x64, .f32⟩
  | .hbm, ⟨31, _⟩ => ⟨S2x50000x64, .f32⟩
  | .hbm, ⟨32, _⟩ => ⟨S2x50000x64, .f32⟩
  | .hbm, ⟨33, _⟩ => ⟨S_, .f32⟩
  | .hbm, ⟨34, _⟩ => ⟨S2x50000x64, .f32⟩
  | .hbm, ⟨35, _⟩ => ⟨S2x50000x64, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  transposes_S2x50000x64_S50000x2x64_1_0_2 : S2x50000x64.Transposes [1, 0, 2] S50000x2x64
  shapeCasts_S50000x2x64_S50000x128 : S50000x2x64.ShapeCasts S50000x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000x128_S50000x2x64 : S50000x128.ShapeCasts S50000x2x64
  transposes_S50000x2x64_S2x50000x64_1_0_2 : S50000x2x64.Transposes [1, 0, 2] S2x50000x64
  bcast_S64_S1x1x64_2 : S64.BroadcastsInDim S1x1x64 (![2] : Fin 1 → Fin S1x1x64.rank)
  bcast_S1x1x64_S2x50000x64_0_1_2 : S1x1x64.BroadcastsInDim S2x50000x64 (![0, 1, 2] : Fin 3 → Fin S2x50000x64.rank)
  bcast_S_S2x50000x64 : S_.BroadcastsInDim S2x50000x64 (![] : Fin 0 → Fin S2x50000x64.rank)
  dot_S2x50000x128_S128x64_S2x50000x64_2_0_01_1_n_n_wf : DotDims.WF S2x50000x128 S128x64 S2x50000x64 [2] [0] [0, 1] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S2x50000x128_S128x64_S2x50000x64_2_0_01_1_n_n : DotDims S2x50000x128 S128x64 S2x50000x64 where
  lhsContracting := [2]
  rhsContracting := [0]
  lhsNonContracting := [0, 1]
  rhsNonContracting := [1]
  lhsBatch := []
  rhsBatch := []
  wf := dot_S2x50000x128_S128x64_S2x50000x64_2_0_01_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel program's run, with its result named.  The program is five segments: host
  operations, the projection kernel's ten grid points, host operations (the two halves of the projection,
  the gather over the edge list, the scaling and the scatter-add), the combining kernel's ten grid
  points, and a last reshape.  Every weakly fair execution ends with each unscoped buffer holding what
  the fold of those segments over the launch memory leaves in it; read at the result's buffer that is the
  result, and at an argument's buffer the argument as launched.
-/
import proofs.«101296_j6897717477506_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result's buffer then holds
    what the last segment boundary's contents have there, and every argument's buffer is as launched. -/
theorem run_result : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- each kernel is launched once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the pipelines' ghost state at launch
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    -- each segment is entered from the state the one before it leaves
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    -- the launch memory is the first segment's entry state
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the final memory agrees with the last boundary's contents on every unscoped buffer
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.KRun

end
-- ==== Proof.HostSide.lean ====
/-
  The host operations of the idealized kernel program, read as values.  Before the projection kernel:
  the input reshaped to 100000 rows, the two weights laid side by side, a zero row and the bias laid end
  to end as one 1 × 128 row.  Between the two kernels: the left and right halves of the projection, each
  reshaped back to [2, 50000, 64]; the right half goes straight to the combining kernel, the left half
  through the message passing over the edge list (named here as ONE function, edgeAgg, applied to the left
  half and the three edge arrays).  After the combining kernel: one reshape back to [2, 50000, 64].
-/
import proofs.«101296_j6897717477506_2_alg».proof.Proof.Gen.KernelIdeal.Frame
import Idealize.ShloMosaic.Lib.StableHlo.Run

set_option maxRecDepth 16384

noncomputable section

namespace Cert.KernelIdeal.HostSide

open Idealize.ShloMosaic Idealize.ShloMosaic.TcCoe Idealize.SL.Sem
open Idealize.ShloMosaic.Pipeline (Dat Cfg Window)
open Cert.KernelIdeal Cert.KernelIdeal.Gen Idealize.ShloMosaic.StableHlo

variable {F : FTy → Type} [FloatOps F]

/-- Message passing over the edge list, on a [2, 50000, 64] array xt: lay the two batches side by side as a
    50000 × 128 array of node rows; for every edge take the row of its source node (a negative node number
    counted from the end), scale it by the edge's value, and add it into the row of the edge's target node,
    starting from zero; lay the result back as [2, 50000, 64]. -/
def edgeAgg (xt : (⟨S2x50000x64, .f32⟩ : BufTy).Contents (Elt F)) (er ec : (⟨S800000, .i32⟩ : BufTy).Contents (Elt F)) (ev : (⟨S800000, .f32⟩ : BufTy).Contents (Elt F)) :
    (⟨S2x50000x64, .f32⟩ : BufTy).Contents (Elt F) :=
  transpose S2x50000x64 [1, 0, 2]
    (shapeCast S50000x2x64
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 er)
        (mulf
          (broadcastInDim S800000x128 ![0, 1] bcast_S800000x1_S800000x128_0_1 (broadcastInDim S800000x1 ![0] bcast_S800000_S800000x1_0 ev))
          (Host.gather gather_S50000x128_S800000x1_S800000x128_1_0_n_n_0_1_1128
            (shapeCast S50000x128 (transpose S50000x2x64 [1, 0, 2] xt transposes_S2x50000x64_S50000x2x64_1_0_2) shapeCasts_S50000x2x64_S50000x128)
            (broadcastInDim S800000x1 ![0] bcast_S800000_S800000x1_0
              (select (cmpi .slt ec (broadcastInDim S800000 ![] bcast_S_S800000 (constantI S_ 32 0#32)))
                (addi ec (broadcastInDim S800000 ![] bcast_S_S800000 (constantI S_ 32 50000#32))) ec)))))
      shapeCasts_S50000x128_S50000x2x64)
    transposes_S50000x2x64_S2x50000x64_1_0_2

variable (m : (ℓ : Loc nD τ sig) → Buf (Elt F) ℓ) (ρ : Dev nD → PrngReg)

/-! ## What the projection kernel finds -/

/-- Its input: the first argument as 100000 rows. -/
theorem entry0_x (c : Dev nD) :
    V1 m ρ c main_v0 = shapeCast S100000x128 (m ((c : Thread nD τ).loc main_arg0)) shapeCasts_S2x50000x128_S100000x128 := by
  show StableHlo.after hostOps0 (W0 m ρ c) (Proc.devRef .tc main_v0) = _
  after_results <;> rfl

/-- Its weight: the two weight arguments side by side. -/
theorem entry0_w (c : Dev nD) :
    V1 m ρ c main_v1 = concatenate S128x128 1 [⟨S128x64, m ((c : Thread nD τ).loc main_arg1)⟩, ⟨S128x64, m ((c : Thread nD τ).loc main_arg2)⟩] concatenates_S128x64_S128x64_S128x128_d1 := by
  show StableHlo.after hostOps0 (W0 m ρ c) (Proc.devRef .tc main_v1) = _
  after_results <;> rfl

/-- Its bias row: sixty-four zeros, then the bias argument. -/
theorem entry0_b (c : Dev nD) :
    V1 m ρ c main_v4 = shapeCast S1x128 (concatenate S128 0 [⟨S64, broadcastInDim S64 ![] bcast_S_S64 (constant S_ .f32 0x00000000#32)⟩, ⟨S64, m ((c : Thread nD τ).loc main_arg3)⟩] concatenates_S64_S64_S128_d0) shapeCasts_S128_S1x128 := by
  show StableHlo.after hostOps0 (W0 m ρ c) (Proc.devRef .tc main_v4) = _
  after_results <;> rfl

/-! ## The edge arrays are still the arguments when the second stretch of host operations reads them -/

theorem edge_row_at (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)

theorem edge_col_at (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)

theorem edge_val_at (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

/-! ## What the combining kernel finds -/

/-- Its first input: the right half of the projection (columns 64 … 127), reshaped to [2, 50000, 64] and back to rows. -/
theorem entry1_self (c : Dev nD) :
    V3 m ρ c main_v27 = shapeCast S100000x64 (shapeCast S2x50000x64 (extractStridedSlice S100000x64 ![0, 64] (W2 m ρ c (Proc.devRef .tc main_v5)) slices_S100000x128_S100000x64_0_64) shapeCasts_S100000x64_S2x50000x64) shapeCasts_S2x50000x64_S100000x64 := by
  show StableHlo.after hostOps1 (W2 m ρ c) (Proc.devRef .tc main_v27) = _
  after_results <;> rfl

set_option maxHeartbeats 2000000 in
/-- Its second input: the message passing applied to the left half of the projection (columns 0 … 63), as rows. -/
theorem entry1_agg (c : Dev nD) :
    V3 m ρ c main_v28 = shapeCast S100000x64
      (edgeAgg (shapeCast S2x50000x64 (extractStridedSlice S100000x64 ![0, 0] (W2 m ρ c (Proc.devRef .tc main_v5)) slices_S100000x128_S100000x64_0_0) shapeCasts_S100000x64_S2x50000x64)
        (W2 m ρ c (Proc.devRef .tc main_arg4)) (W2 m ρ c (Proc.devRef .tc main_arg5)) (W2 m ρ c (Proc.devRef .tc main_arg6)))
      shapeCasts_S2x50000x64_S100000x64 := by
  unfold edgeAgg
  show StableHlo.after hostOps1 (W2 m ρ c) (Proc.devRef .tc main_v28) = _
  after_results <;> rfl

/-! ## The result -/

/-- The program's result: the combining kernel's output reshaped to [2, 50000, 64]. -/
theorem exit_result (c : Dev nD) :
    W5 m ρ c (Proc.devRef .tc main_v30) = shapeCast S2x50000x64 (W4 m ρ c (Proc.devRef .tc main_v29)) shapeCasts_S100000x64_S2x50000x64 := by
  show StableHlo.after hostOps2 (W4 m ρ c) (Proc.devRef .tc main_v30) = _
  after_results <;> rfl

end Cert.KernelIdeal.HostSide

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Project.lean ====
/-
  The projection kernel, as one function of the arrays it finds.  Each of its ten grid points loads rows
  10000·t … 10000·t + 9999 of the 100000 × 128 input, the whole 128 × 128 weight and the one-row bias,
  multiplies (its changes of float format are the identity on the extended reals, and the product
  accumulates from zero), adds the bias row to every row and writes the rows back to the same place in
  the output.  Entry (r, j) of the product depends on row r of the input only, so the output ends as
  Σₖ x(r, k) · w(k, j) + b(0, j) at every index.
-/
import proofs.«101296_j6897717477506_2_alg».proof.Proof.Gen.KernelIdeal.Frame
import proofs.«101296_j6897717477506_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Project

open Idealize.ShloMosaic Idealize.ShloMosaic.TcCoe Idealize.SL.Sem
open Idealize.ShloMosaic.Pipeline (Dat Cfg Window)
open Cert.KernelIdeal Cert.KernelIdeal.Gen Idealize.ShloMosaic.ValueIdx

open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Rows of x times the 128 × 128 matrix w, plus the one-row array b added to every row. -/
def affine {A : Nat} (x : (⟨2, ![A, 128]⟩ : Shape).Idx → EReal) (w : (⟨2, ![128, 128]⟩ : Shape).Idx → EReal)
    (b : (⟨2, ![1, 128]⟩ : Shape).Idx → EReal) : (⟨2, ![A, 128]⟩ : Shape).Idx → EReal :=
  fun i => (∑ k : Fin 128, x (ix2 (i 0) k) * w (ix2 k (i 1))) + b (ix2 (0 : Fin 1) (i 1))

theorem affine_apply {A : Nat} (x : (⟨2, ![A, 128]⟩ : Shape).Idx → EReal) (w : (⟨2, ![128, 128]⟩ : Shape).Idx → EReal)
    (b : (⟨2, ![1, 128]⟩ : Shape).Idx → EReal) (p : Fin A) (q : Fin 128) :
    affine x w b (ix2 p q) = (∑ k : Fin 128, x (ix2 p k) * w (ix2 k q)) + b (ix2 (0 : Fin 1) q) := rfl

/-- The body's stored value: the loaded block times the loaded weight, plus the loaded bias row on every row. -/
theorem body_eq (x0 : FVec Ideal S10000x128 .f32) (x1 : FVec Ideal S128x128 .f32) (x2 : FVec Ideal S1x128 .f32) :
    k0_pay1 (F := Ideal) x0 x1 x2 = affine x0 x1 x2 := by
  have e : k0_pay1 (F := Ideal) x0 x1 x2
      = addf (FloatOps.matmul dot_S10000x128_S128x128_S10000x128_1_0_0_1_n_n none x0 x1 (constant S10000x128 .f32 0x00000000#32))
          (broadcastTo S10000x128 x2 broadcasts_S1x128_S10000x128) := by
    unfold k0_pay1
    simp only [shapeCast_self]
    rfl
  rw [e]
  funext j
  obtain ⟨p, q, rfl⟩ : ∃ (p : Fin 10000) (q : Fin 128), j = ix2 p q := ⟨j 0, j 1, eq_ix2 j⟩
  have hm := congrFun (Cert.LibMatmul.matmul_zero_eq dot_S10000x128_S128x128_S10000x128_1_0_0_1_n_n rfl rfl rfl rfl rfl rfl none x0 x1) (ix2 p q)
  have hb : broadcastTo S10000x128 x2 broadcasts_S1x128_S10000x128 (ix2 p q) = x2 (ix2 (0 : Fin 1) q) :=
    broadcastTo_1b_ab_apply x2 broadcasts_S1x128_S10000x128 p q
  show FloatOps.matmul dot_S10000x128_S128x128_S10000x128_1_0_0_1_n_n none x0 x1 (constant S10000x128 .f32 0x00000000#32) (ix2 p q)
      + broadcastTo S10000x128 x2 broadcasts_S1x128_S10000x128 (ix2 p q) = _
  rw [hm, hb]
  rfl

/-- At every grid point the input's block sits at block row t like the output's; the weight and the bias are whole. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every one of the ten row blocks is some grid point's. -/
theorem index_onto : ∀ q : Fin 10, ∃ t : Fin cfg0.N, win0_3.index t = ![q.val, 0] :=
  (by decide +kernel : ∀ q : Fin 10, ∃ t : Fin grid0.N, win0_3.index t = ![q.val, 0])

/-- What grid point t writes back is block t of the whole arrays' affine image: row p of the block is row
    10000·t + p of the input, and the weight and bias blocks are the whole weight and bias. -/
theorem flushed_eq (c : Dev nD) (t : Fin cfg0.N) :
    (dat0 V c).flushed 3 t = ((cfg0.win 3).blk t).view.read (Elt Ideal) (affine (V c main_v0) (V c main_v1) (V c main_v4)) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin, View.ld_unit_zero (S := S1x128) origin]
  rw [body_eq]
  obtain ⟨e0, e1, e2, e3, e4, e5, e6, e7⟩ := index_facts t
  funext j
  obtain ⟨p, q, rfl⟩ : ∃ (p : Fin 10000) (q : Fin 128), j = ix2 p q := ⟨j 0, j 1, eq_ix2 j⟩
  have hp : p.val < 10000 := p.isLt
  have hq : q.val < 128 := q.isLt
  let row : Fin 100000 := ⟨win0_3.index t (0 : Fin 2) * 10000 + p.val, by omega⟩
  have hemb : ((cfg0.win 3).blk t).view.emb (ix2 p q) = ix2 row q := funext fun a => Fin.ext (by
    match a with
    | ⟨0, _⟩ => show win0_3.index t (0 : Fin 2) * 10000 + 1 * p.val = win0_3.index t (0 : Fin 2) * 10000 + p.val; omega
    | ⟨1, _⟩ => show win0_3.index t (1 : Fin 2) * 128 + 1 * q.val = q.val; omega)
  have r0 : ∀ k : Fin 128, iblk0 V c 0 t (ix2 p k) = V c main_v0 (ix2 row k) := fun k =>
    show V c main_v0 (((cfg0.win 0).blk t).view.emb (ix2 p k)) = V c main_v0 (ix2 row k) from
      congrArg (V c main_v0) (funext fun a => Fin.ext (by
        match a with
        | ⟨0, _⟩ => show win0_0.index t (0 : Fin 2) * 10000 + 1 * p.val = win0_3.index t (0 : Fin 2) * 10000 + p.val; omega
        | ⟨1, _⟩ => show win0_0.index t (1 : Fin 2) * 128 + 1 * k.val = k.val; omega))
  have r1 : ∀ k : Fin 128, iblk0 V c 1 t (ix2 k q) = V c main_v1 (ix2 k q) := fun k =>
    show V c main_v1 (((cfg0.win 1).blk t).view.emb (ix2 k q)) = V c main_v1 (ix2 k q) from
      congrArg (V c main_v1) (funext fun a => Fin.ext (by
        match a with
        | ⟨0, _⟩ => show win0_1.index t (0 : Fin 2) * 128 + 1 * k.val = k.val; omega
        | ⟨1, _⟩ => show win0_1.index t (1 : Fin 2) * 128 + 1 * q.val = q.val; omega))
  have r2 : iblk0 V c 2 t (ix2 (0 : Fin 1) q) = V c main_v4 (ix2 (0 : Fin 1) q) :=
    show V c main_v4 (((cfg0.win 2).blk t).view.emb (ix2 (0 : Fin 1) q)) = V c main_v4 (ix2 (0 : Fin 1) q) from
      congrArg (V c main_v4) (funext fun a => Fin.ext (by
        match a with
        | ⟨0, _⟩ => show win0_2.index t (0 : Fin 2) * 1 + 1 * 0 = 0; omega
        | ⟨1, _⟩ => show win0_2.index t (1 : Fin 2) * 128 + 1 * q.val = q.val; omega))
  show affine (iblk0 V c 0 t) (iblk0 V c 1 t) (iblk0 V c 2 t) (ix2 p q)
    = affine (V c main_v0) (V c main_v1) (V c main_v4) (((cfg0.win 3).blk t).view.emb (ix2 p q))
  rw [hemb, affine_apply, affine_apply, r2]
  exact congrArg (· + V c main_v4 (ix2 (0 : Fin 1) q)) (Finset.sum_congr rfl fun k _ => by rw [r0 k, r1 k])

/-- An index lies in grid point t's output block exactly when each coordinate lies in the block's range. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v5).slice (win0_3.rect t)).set ↔ _
  rw [View.set_slice_whole, Rect.mem_set_unit]
  exact Iff.rfl

/-- Row r of the output lies in the block of the grid point that handles rows 10000·⌊r / 10000⌋ onward. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The output array after the ten grid points: the affine image of the input under the weight and bias the kernel found. -/
theorem final (c : Dev nD) : (dat0 V c).arrAt 3 cfg0.N = affine (V c main_v0) (V c main_v1) (V c main_v4) :=
  (dat0 V c).arrAt_eq_of_cover 3 _ (fun t _ => flushed_eq V c t) (fun i => covered i)

end Cert.KernelIdeal.Project

end
-- ==== Proof.Combine.lean ====
/-
  The combining kernel, as one function of the arrays it finds.  Each of its ten grid points loads rows
  10000·t … 10000·t + 9999 of two 100000 × 64 arrays, adds them entry by entry, clips the sum below at zero
  and writes the rows back to the same place in the output.  The blocks are disjoint and fill the output,
  so the output ends as max(a + b, 0) at every index.
-/
import proofs.«101296_j6897717477506_2_alg».proof.Proof.Gen.KernelIdeal.Frame
import Idealize.ShloMosaic.Lib.Pipeline.Value

set_option maxRecDepth 16384

noncomputable section

namespace Cert.KernelIdeal.Combine

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The sum of two arrays clipped below at zero, entry by entry. -/
def addRelu (a b : S100000x64.Idx → Elt F .f32) : S100000x64.Idx → Elt F .f32 :=
  fun i => FloatOps.maximumf (FloatOps.addf (a i) (b i)) (Scalar.ofBits .f32 0x00000000#32)

/-- The body's stored value is the clipped sum of its two loaded blocks (its shape casts change nothing). -/
theorem body_eq (x0 x1 : Vec F S10000x64 .f32) :
    k1_pay1 x0 x1 = fun j => FloatOps.maximumf (FloatOps.addf (x0 j) (x1 j)) (Scalar.ofBits .f32 0x00000000#32) := by
  unfold k1_pay1
  simp only [shapeCast_self]
  rfl

/-- At every grid point the two inputs' blocks sit where the output's block sits: block row t, block column 0. -/
theorem index_facts : ∀ t : Fin cfg1.N,
    win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = win1_2.index t (1 : Fin 2) :=
  (by decide +kernel : ∀ t : Fin grid1.N, _)

/-- Every one of the ten row blocks is some grid point's. -/
theorem index_onto : ∀ q : Fin 10, ∃ t : Fin cfg1.N, win1_2.index t = ![q.val, 0] :=
  (by decide +kernel : ∀ q : Fin 10, ∃ t : Fin grid1.N, win1_2.index t = ![q.val, 0])

/-- What grid point t writes back is block t of the clipped sum of the two whole arrays. -/
theorem flushed_eq (c : Dev nD) (t : Fin cfg1.N) :
    (dat1 V c).flushed 2 t = ((cfg1.win 2).blk t).view.read (Elt F) (addRelu (V c main_v27) (V c main_v28)) := by
  show (cfg1.win 2).cut (grid1.coords t) ((dat1 V c).after 2 t) = _
  rw [after1_2]
  unfold out1_2
  rw [View.canon_unit_zero origin]
  simp only [View.ld_unit_zero (S := S10000x64) origin]
  rw [body_eq]
  obtain ⟨e0, e1, e2, e3⟩ := index_facts t
  funext j
  show FloatOps.maximumf (FloatOps.addf (V c main_v27 (((cfg1.win 0).blk t).view.emb j)) (V c main_v28 (((cfg1.win 1).blk t).view.emb j))) _
    = FloatOps.maximumf (FloatOps.addf (V c main_v27 (((cfg1.win 2).blk t).view.emb j)) (V c main_v28 (((cfg1.win 2).blk t).view.emb j))) _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An index lies in grid point t's output block exactly when each coordinate lies in the block's range. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v29).slice (win1_2.rect t)).set ↔ _
  rw [View.set_slice_whole, Rect.mem_set_unit]
  exact Iff.rfl

/-- Row r of the output lies in the block of the grid point that handles rows 10000·⌊r / 10000⌋ onward. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the ten grid points: the clipped sum of the two input arrays as the kernel found them. -/
theorem final (c : Dev nD) : (dat1 V c).arrAt 2 cfg1.N = addRelu (V c main_v27) (V c main_v28) :=
  (dat1 V c).arrAt_eq_of_cover 2 _ (fun t _ => flushed_eq V c t) (fun i => covered i)

end Cert.KernelIdeal.Combine

end
-- ==== Proof.Bridge.lean ====
/-
  The two halves of the fused projection are the reference's two products.  The projection kernel
  multiplies the 100000 rows of the input by the two weights laid side by side and adds the row
  (0, …, 0, bias).  Row r = 50000·b + n of the input is x(b, n, ·).  Column j < 64 of the fused weight is column
  j of the first weight and the added entry is 0, so entry (r, j) is Σₖ x(b, n, k) · W(k, j) + 0, the reference's
  first product (adding zero changes no extended real).  Column 64 + j is column j of the second weight and
  the added entry is bias(j), so entry (r, 64 + j) is Σₖ x(b, n, k) · W_self(k, j) + bias(j), the reference's
  second product with the bias added.  Last, laying two [2, 50000, 64] arrays out as rows, adding, clipping
  at zero and laying the rows back is adding and clipping in place: the layout is a bijection of indices.
-/
import proofs.«101296_j6897717477506_2_alg».proof.Proof.Gen.ReferenceIdeal.Read
import proofs.«101296_j6897717477506_2_alg».proof.Proof.Project
import proofs.«101296_j6897717477506_2_alg».proof.Proof.Combine
import Idealize.ShloMosaic.Lib.Pipeline.Value
import Idealize.ShloMosaic.Lib.ValueIdx
import Idealize.ShloMosaic.PureOps.Ideal.Laws

set_option maxRecDepth 16384

noncomputable section

namespace Cert.KernelIdeal.Bridge

open Idealize.ShloMosaic Idealize.ShloMosaic.ValueIdx
open Cert.KernelIdeal Cert.KernelIdeal.Gen
open Cert.KernelIdeal.Project (affine affine_apply)
open scoped BigOperators

/-- The zero row of the fused bias holds zero. -/
theorem zero_row (o : Fin 64) :
    broadcastInDim S64 ![] bcast_S_S64 (constant (F := Ideal) S_ .f32 0x00000000#32) (ix1 o) = 0 :=
  (broadcastInDim_apply _ bcast_S_S64 (constant (F := Ideal) S_ .f32 0x00000000#32) (ix1 o) ix0 (fun a => a.elim0)).trans
    (show Ideal.ofBits .f32 0x00000000#32 = 0 from Ideal.ofBits_zero_f32)

section Halves
variable (x0 : (⟨S2x50000x128, .f32⟩ : BufTy).Contents (Elt Ideal)) (x1 x2 : (⟨S128x64, .f32⟩ : BufTy).Contents (Elt Ideal)) (x3 : (⟨S64, .f32⟩ : BufTy).Contents (Elt Ideal))

/-- The input as 100000 rows. -/
abbrev rows : (⟨S100000x128, .f32⟩ : BufTy).Contents (Elt Ideal) := shapeCast S100000x128 x0 shapeCasts_S2x50000x128_S100000x128
/-- The two weights side by side. -/
abbrev weights : (⟨S128x128, .f32⟩ : BufTy).Contents (Elt Ideal) :=
  concatenate S128x128 1 [⟨S128x64, x1⟩, ⟨S128x64, x2⟩] concatenates_S128x64_S128x64_S128x128_d1
/-- Sixty-four zeros and the bias, as one row. -/
abbrev biasRow : (⟨S1x128, .f32⟩ : BufTy).Contents (Elt Ideal) :=
  shapeCast S1x128 (concatenate S128 0 [⟨S64, broadcastInDim S64 ![] bcast_S_S64 (constant (F := Ideal) S_ .f32 0x00000000#32)⟩, ⟨S64, x3⟩] concatenates_S64_S64_S128_d0) shapeCasts_S128_S1x128
/-- The fused projection of the whole input. -/
abbrev fused : (⟨S100000x128, .f32⟩ : BufTy).Contents (Elt Ideal) := affine (rows x0) (weights x1 x2) (biasRow x3)

/-- Columns 0 … 63 of the fused projection, as [2, 50000, 64], are the input times the first weight. -/
theorem left_half :
    shapeCast S2x50000x64 (extractStridedSlice S100000x64 ![0, 0] (fused x0 x1 x2 x3) slices_S100000x128_S100000x64_0_0) shapeCasts_S100000x64_S2x50000x64
      = Cert.ReferenceIdeal.Read.val_main_v0 (F := Ideal) x0 x1 := by
  funext i
  obtain ⟨b, n, o, rfl⟩ : ∃ (b : Fin 2) (n : Fin 50000) (o : Fin 64), i = ix3 b n o := ⟨i 0, i 1, i 2, eq_ix3 i⟩
  have hb := b.isLt
  have hn := n.isLt
  have ho := o.isLt
  let r : Fin 100000 := ⟨b.val * 50000 + n.val, by omega⟩
  let o' : Fin 128 := ⟨o.val, by omega⟩
  have h1 : shapeCast S2x50000x64 (extractStridedSlice S100000x64 ![0, 0] (fused x0 x1 x2 x3) slices_S100000x128_S100000x64_0_0) shapeCasts_S100000x64_S2x50000x64 (ix3 b n o)
      = extractStridedSlice S100000x64 ![0, 0] (fused x0 x1 x2 x3) slices_S100000x128_S100000x64_0_0 (ix2 r o) :=
    shapeCast_apply _ shapeCasts_S100000x64_S2x50000x64 (ix3 b n o) (ix2 r o) (by
      rw [Shape.rowMajor_val_two, Shape.rowMajor_val_three]; rfl)
  have h2 : extractStridedSlice S100000x64 ![0, 0] (fused x0 x1 x2 x3) slices_S100000x128_S100000x64_0_0 (ix2 r o) = fused x0 x1 x2 x3 (ix2 r o') :=
    extractStridedSlice_apply ![0, 0] _ slices_S100000x128_S100000x64_0_0 (ix2 r o) (ix2 r o') (fun a => by
      match a with
      | ⟨0, _⟩ => show r.val = 0 + r.val; omega
      | ⟨1, _⟩ => show o.val = 0 + o.val; omega)
  have hX : ∀ k : Fin 128, rows x0 (ix2 r k) = x0 (ix3 b n k) := fun k =>
    shapeCast_apply x0 shapeCasts_S2x50000x128_S100000x128 (ix2 r k) (ix3 b n k) (by
      rw [Shape.rowMajor_val_three, Shape.rowMajor_val_two]; rfl)
  have hW : ∀ k : Fin 128, weights x1 x2 (ix2 k o') = x1 (ix2 k o) := fun k =>
    concatenate_pair_apply_left (t := S128x128) (s₁ := S128x64) (s₂ := S128x64) (1 : Fin 2) x1 x2 concatenates_S128x64_S128x64_S128x128_d1 (ix2 k o') rfl (ix2 k o) (fun c => by
      match c with
      | ⟨0, _⟩ => rfl
      | ⟨1, _⟩ => rfl)
  have hB : biasRow x3 (ix2 (0 : Fin 1) o') = 0 :=
    (shapeCast_apply _ shapeCasts_S128_S1x128 (ix2 (0 : Fin 1) o') (ix1 o') (by
      rw [Shape.rowMajor_val_one, Shape.rowMajor_val_two]; show o.val = 0 * 128 + o.val; omega)).trans
      ((concatenate_pair_apply_left (t := S128) (s₁ := S64) (s₂ := S64) (0 : Fin 1) (broadcastInDim S64 ![] bcast_S_S64 (constant (F := Ideal) S_ .f32 0x00000000#32)) x3 concatenates_S64_S64_S128_d0 (ix1 o') rfl (ix1 o) (fun c => by
        match c with
        | ⟨0, _⟩ => rfl)).trans (zero_row o))
  rw [h1, h2]
  show affine (rows x0) (weights x1 x2) (biasRow x3) (ix2 r o') = _
  rw [affine_apply, hB, add_zero, Cert.ReferenceIdeal.Read.val_main_v0_apply]
  refine Finset.sum_congr rfl fun k _ => ?_
  have hl : Cert.ReferenceIdeal.Read.lidx_main_v0 (ix3 b n o) k = ix3 b n k := funext fun a => by
    match a with
    | ⟨0, _⟩ => rfl
    | ⟨1, _⟩ => rfl
    | ⟨2, _⟩ => rfl
  have hr : Cert.ReferenceIdeal.Read.ridx_main_v0 (ix3 b n o) k = ix2 k o := funext fun a => by
    match a with
    | ⟨0, _⟩ => rfl
    | ⟨1, _⟩ => rfl
  rw [hX k, hW k, hl, hr]

/-- Columns 64 … 127 of the fused projection, as [2, 50000, 64], are the input times the second weight plus the bias. -/
theorem right_half :
    shapeCast S2x50000x64 (extractStridedSlice S100000x64 ![0, 64] (fused x0 x1 x2 x3) slices_S100000x128_S100000x64_0_64) shapeCasts_S100000x64_S2x50000x64
      = Cert.ReferenceIdeal.Read.val_main_v21 (F := Ideal) x0 x2 x3 := by
  funext i
  obtain ⟨b, n, o, rfl⟩ : ∃ (b : Fin 2) (n : Fin 50000) (o : Fin 64), i = ix3 b n o := ⟨i 0, i 1, i 2, eq_ix3 i⟩
  have hb := b.isLt
  have hn := n.isLt
  have ho := o.isLt
  let r : Fin 100000 := ⟨b.val * 50000 + n.val, by omega⟩
  let o' : Fin 128 := ⟨64 + o.val, by omega⟩
  have h1 : shapeCast S2x50000x64 (extractStridedSlice S100000x64 ![0, 64] (fused x0 x1 x2 x3) slices_S100000x128_S100000x64_0_64) shapeCasts_S100000x64_S2x50000x64 (ix3 b n o)
      = extractStridedSlice S100000x64 ![0, 64] (fused x0 x1 x2 x3) slices_S100000x128_S100000x64_0_64 (ix2 r o) :=
    shapeCast_apply _ shapeCasts_S100000x64_S2x50000x64 (ix3 b n o) (ix2 r o) (by
      rw [Shape.rowMajor_val_two, Shape.rowMajor_val_three]; rfl)
  have h2 : extractStridedSlice S100000x64 ![0, 64] (fused x0 x1 x2 x3) slices_S100000x128_S100000x64_0_64 (ix2 r o) = fused x0 x1 x2 x3 (ix2 r o') :=
    extractStridedSlice_apply ![0, 64] _ slices_S100000x128_S100000x64_0_64 (ix2 r o) (ix2 r o') (fun a => by
      match a with
      | ⟨0, _⟩ => show r.val = 0 + r.val; omega
      | ⟨1, _⟩ => show 64 + o.val = 64 + o.val; omega)
  have hX : ∀ k : Fin 128, rows x0 (ix2 r k) = x0 (ix3 b n k) := fun k =>
    shapeCast_apply x0 shapeCasts_S2x50000x128_S100000x128 (ix2 r k) (ix3 b n k) (by
      rw [Shape.rowMajor_val_three, Shape.rowMajor_val_two]; rfl)
  have hW : ∀ k : Fin 128, weights x1 x2 (ix2 k o') = x2 (ix2 k o) := fun k =>
    concatenate_pair_apply_right (t := S128x128) (s₁ := S128x64) (s₂ := S128x64) (1 : Fin 2) x1 x2 concatenates_S128x64_S128x64_S128x128_d1 (ix2 k o') rfl rfl (ix2 k o)
      (fun c hc => by
        match c with
        | ⟨0, _⟩ => rfl
        | ⟨1, _⟩ => exact absurd rfl hc)
      (by show o.val + 64 = 64 + o.val; omega)
  have hB : biasRow x3 (ix2 (0 : Fin 1) o') = x3 (ix1 o) :=
    (shapeCast_apply _ shapeCasts_S128_S1x128 (ix2 (0 : Fin 1) o') (ix1 o') (by
      rw [Shape.rowMajor_val_one, Shape.rowMajor_val_two]; show 64 + o.val = 0 * 128 + (64 + o.val); omega)).trans
      (concatenate_pair_apply_right (t := S128) (s₁ := S64) (s₂ := S64) (0 : Fin 1) (broadcastInDim S64 ![] bcast_S_S64 (constant (F := Ideal) S_ .f32 0x00000000#32)) x3 concatenates_S64_S64_S128_d0 (ix1 o') rfl rfl (ix1 o)
        (fun c hc => by
          match c with
          | ⟨0, _⟩ => exact absurd rfl hc)
        (by show o.val + 64 = 64 + o.val; omega))
  rw [h1, h2]
  show affine (rows x0) (weights x1 x2) (biasRow x3) (ix2 r o') = _
  rw [affine_apply, hB, Cert.ReferenceIdeal.Read.val_main_v21_apply, Cert.ReferenceIdeal.Read.val_main_v18_apply, Cert.ReferenceIdeal.Read.val_main_v20_apply, Cert.ReferenceIdeal.Read.val_main_v19_apply]
  have hi : Cert.ReferenceIdeal.Read.idx_main_v19 (Cert.ReferenceIdeal.Read.idx_main_v20 (ix3 b n o)) = ix1 o := funext fun a => by
    match a with
    | ⟨0, _⟩ => rfl
  rw [hi]
  show _ = (∑ k : Fin 128, x0 (Cert.ReferenceIdeal.Read.lidx_main_v18 (ix3 b n o) k) * x2 (Cert.ReferenceIdeal.Read.ridx_main_v18 (ix3 b n o) k)) + x3 (ix1 o)
  refine congrArg (· + x3 (ix1 o)) (Finset.sum_congr rfl fun k _ => ?_)
  have hl : Cert.ReferenceIdeal.Read.lidx_main_v18 (ix3 b n o) k = ix3 b n k := funext fun a => by
    match a with
    | ⟨0, _⟩ => rfl
    | ⟨1, _⟩ => rfl
    | ⟨2, _⟩ => rfl
  have hr : Cert.ReferenceIdeal.Read.ridx_main_v18 (ix3 b n o) k = ix2 k o := funext fun a => by
    match a with
    | ⟨0, _⟩ => rfl
    | ⟨1, _⟩ => rfl
  rw [hX k, hW k, hl, hr]

end Halves

/-- Rows in, clipped sum, rows out: the clipped sum in place. -/
theorem combine_eq (a b : (⟨S2x50000x64, .f32⟩ : BufTy).Contents (Elt Ideal)) :
    shapeCast S2x50000x64 (Combine.addRelu (F := Ideal) (shapeCast S100000x64 a shapeCasts_S2x50000x64_S100000x64) (shapeCast S100000x64 b shapeCasts_S2x50000x64_S100000x64)) shapeCasts_S100000x64_S2x50000x64
      = maximumf (F := Ideal) (φ := .f32) (addf (F := Ideal) (φ := .f32) a b) (Cert.ReferenceIdeal.Read.val_main_call0_v0 (F := Ideal)) := by
  funext i
  have ha := congrFun (shapeCast_shapeCast a shapeCasts_S2x50000x64_S100000x64 shapeCasts_S100000x64_S2x50000x64) i
  have hb := congrFun (shapeCast_shapeCast b shapeCasts_S2x50000x64_S100000x64 shapeCasts_S100000x64_S2x50000x64) i
  have hz : Cert.ReferenceIdeal.Read.val_main_call0_v0 (F := Ideal) i = (Scalar.ofBits .f32 0x00000000#32 : Ideal .f32) :=
    (Cert.ReferenceIdeal.Read.val_main_call0_v0_apply i).trans (Cert.ReferenceIdeal.Read.val_main_call0_cst_apply _)
  show FloatOps.maximumf (F := Ideal) (φ := .f32) (FloatOps.addf (F := Ideal) (φ := .f32)
        (shapeCast S2x50000x64 (shapeCast S100000x64 a shapeCasts_S2x50000x64_S100000x64) shapeCasts_S100000x64_S2x50000x64 i)
        (shapeCast S2x50000x64 (shapeCast S100000x64 b shapeCasts_S2x50000x64_S100000x64) shapeCasts_S100000x64_S2x50000x64 i)) (Scalar.ofBits .f32 0x00000000#32)
      = FloatOps.maximumf (F := Ideal) (φ := .f32) (FloatOps.addf (F := Ideal) (φ := .f32) (a i) (b i)) (Cert.ReferenceIdeal.Read.val_main_call0_v0 (F := Ideal) i)
  rw [ha, hb, hz]

end Cert.KernelIdeal.Bridge

end
-- ==== Proof.KValue.lean ====
/-
  The idealized kernel program's result, as the reference's function of the arguments.  The result is the
  combining kernel's output laid back as [2, 50000, 64]; that output is the clipped sum of the right half of
  the fused projection and the message passing applied to its left half; the two halves are the reference's
  two products; and the message passing is the same function of the same edge arrays on both sides.
-/
import proofs.«101296_j6897717477506_2_alg».proof.Proof.KRun
import proofs.«101296_j6897717477506_2_alg».proof.Proof.HostSide
import proofs.«101296_j6897717477506_2_alg».proof.Proof.Project
import proofs.«101296_j6897717477506_2_alg».proof.Proof.Combine
import proofs.«101296_j6897717477506_2_alg».proof.Proof.Bridge

set_option maxRecDepth 16384

noncomputable section

namespace Cert.KernelIdeal.KValue

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- What the projection kernel leaves in its output array: the fused projection of the arguments. -/
theorem projected (c : Dev nD) :
    W2 m ρ c (Proc.devRef .tc main_v5)
      = Bridge.fused (m ((c : Thread nD τ).loc main_arg0)) (m ((c : Thread nD τ).loc main_arg1)) (m ((c : Thread nD τ).loc main_arg2)) (m ((c : Thread nD τ).loc main_arg3)) :=
  (W2_arr m ρ c 3).trans ((Project.final (V1 m ρ) c).trans (by
    rw [HostSide.entry0_x, HostSide.entry0_w, HostSide.entry0_b]))

/-- What the combining kernel leaves in its output array: the clipped sum of the two arrays it found. -/
theorem combined (c : Dev nD) :
    W4 m ρ c (Proc.devRef .tc main_v29) = Combine.addRelu (V3 m ρ c main_v27) (V3 m ρ c main_v28) :=
  (W4_arr m ρ c 2).trans (Combine.final (V3 m ρ) c)

/-- The result's buffer at the last segment boundary holds the reference's result of the launch arguments. -/
theorem result_eq (c : Dev nD) :
    W5 m ρ c (Proc.devRef .tc main_v30) = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [HostSide.exit_result, combined, HostSide.entry1_self, HostSide.entry1_agg, HostSide.edge_row_at, HostSide.edge_col_at,
    HostSide.edge_val_at, projected, Bridge.combine_eq, Bridge.left_half, Bridge.right_half]
  rfl

/-- Every weakly fair execution of the idealized kernel program terminates without a fault, with the result's
    buffer at the reference's function of the arguments and the arguments unchanged. -/
theorem run_value : θ_run defs (onTc (τ := τ) (main (F := Ideal))) ⟨m, fun _ => 0, ρ⟩ (fun r => ∀ c : Dev nD,
      r.2.mem ((c.tc : Thread nD τ).loc main_v30) = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (KRun.run_result m ρ)

end Cert.KernelIdeal.KValue

end
-- ==== Proof.lean ====
/-
  A graph layer on node features x[2, 50000, 128] with a COO adjacency (edge_row, edge_col, edge_val):
  out = max(x·W_self + b_self + A·(x·W), 0), where A·y adds edge_val(e) · y[edge_col(e)] into row edge_row(e).

  The kernel computes both products at once: it lays x out as 100000 rows, puts W and W_self side by side
  as one 128 × 128 weight and (0, …, 0, b_self) as one bias row, and a first Pallas kernel forms rows · weight
  + bias, ten row blocks of 10000.  Its left half is x·W (+ 0), its right half x·W_self + b_self.  The host
  then runs the message passing on the left half exactly as the reference does, and a second Pallas kernel
  adds the right half and the aggregate and clips at zero, again ten row blocks of 10000.

  On the extended reals the kernel's changes of float format are the identity and its matrix product from
  the zero accumulator is the plain sum over k, so the two programs agree entry by entry: the only laws
  used are a + 0 = a and that a sum over k does not depend on how the operands were laid out.  Neither needs
  the inputs to be finite, so the precondition is never opened.  The ideal pass rewrote nothing, so the
  kernel's idealization is its own text read at the extended reals.

  The three frame claims: the word-level kernel's and the idealized kernel's are the generated frame
  certificates; the reference's is its generated run with the result dropped.  The value claim: the
  idealized kernel's run ends with its result at the reference's function of the arguments (KValue), the
  reference's run ends at the same function of its own arguments (the generated run), and the arguments agree.
-/
import proofs.«101296_j6897717477506_2_alg».proof.Defs
import proofs.«101296_j6897717477506_2_alg».proof.Proof.Gen.Kernel
import proofs.«101296_j6897717477506_2_alg».proof.Proof.Gen.Kernel.Frame
import proofs.«101296_j6897717477506_2_alg».proof.Proof.Gen.KernelIdeal
import proofs.«101296_j6897717477506_2_alg».proof.Proof.Gen.KernelIdeal.Frame
import proofs.«101296_j6897717477506_2_alg».proof.Proof.Gen.ReferenceIdeal
import proofs.«101296_j6897717477506_2_alg».proof.Proof.Gen.Pre_finite_inputs
import proofs.«101296_j6897717477506_2_alg».proof.Proof.Gen.ReferenceIdeal.Run
import proofs.«101296_j6897717477506_2_alg».proof.Proof.Gen.ReferenceIdeal.Read
import proofs.«101296_j6897717477506_2_alg».proof.Proof.KValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's function of the (agreeing) arguments in their result. -/
theorem algebraic : Cert.algebraic_KernelIdeal_ReferenceIdeal := by
  intro m ρ m' ρ' _ hagree
  refine ⟨fun c => Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact Cert.ReferenceIdeal.Read.val_main_v23_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
